-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x16x2048x2048 : Shape := ⟨4, ![4, 16, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x16x2048x2048 32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x16x2048x2048 : Shape := ⟨4, ![4, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .i32⟩
  | .hbm, ⟨4, _⟩ => ⟨S4x16x2048x64, .f32⟩
  | .hbm, ⟨5, _⟩ => ⟨S4x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  broadcasts_S512x1_S512x64 : S512x1.Broadcasts S512x64
  shapeCasts_S512x64_S1x1x512x64 : S512x64.ShapeCasts S1x1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S4x16x2048x2048.size a
  hwx0_3 : ∀ i : grid0.Coords, EltTy.bits .i32 = 32 ∨ (Rect.block (s := S4x16x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .i32⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S_, .i32⟩
  | .hbm, ⟨9, _⟩ => ⟨S4x16x2048x2048, .i32⟩
  | .hbm, ⟨10, _⟩ => ⟨S4x16x2048x2048, .i1⟩
  | .hbm, ⟨11, _⟩ => ⟨S_, .f32⟩
  | .hbm, ⟨12, _⟩ => ⟨S4x16x2048x2048, .f32⟩
  | .hbm, ⟨13, _⟩ => ⟨S4x16x2048x2048, .f32⟩
  | .hbm, ⟨14, _⟩ => ⟨S_, .f32⟩
  | .hbm, ⟨15, _⟩ => ⟨S4x16x2048, .f32⟩
  | .hbm, ⟨16, _⟩ => ⟨S_, .f32⟩
  | .hbm, ⟨17, _⟩ => ⟨S4x16x2048, .f32⟩
  | .hbm, ⟨18, _⟩ => ⟨S4x16x2048, .f32⟩
  | .hbm, ⟨19, _⟩ => ⟨S4x16x2048x1, .f32⟩
  | .hbm, ⟨20, _⟩ => ⟨S4x16x2048x2048, .f32⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S4x16x2048x1, .f32⟩
  | .hbm, ⟨26, _⟩ => ⟨S4x16x2048x2048, .f32⟩
  | .hbm, ⟨27, _⟩ => ⟨S4x16x2048x2048, .f32⟩
  | .hbm, ⟨28, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Dots.lean ====
/- The body's two matrix products read at an entry. At the exact instance a product into a zero accumulator is the plain
   sum over the contracted axis of the operands' products: the scores are Q-block times the transposed K-block (contracting
   the 64 features), the unnormalised context is the weights times the V-block (contracting the 2048 keys). -/
import proofs.«101043_j11132555231519_2_alg».proof.Proof.Gen.KernelIdeal
import Idealize.ShloMosaic.PureOps.Ideal.Laws
import Idealize.ShloMosaic.Lib.ValueIdx

noncomputable section

namespace Cert.Attn

open Idealize.ShloMosaic Idealize.ShloMosaic.ValueIdx Cert.KernelIdeal Cert.KernelIdeal.Gen Cert.KernelIdeal.Facts₀

/-- Left operand index of the product at output (r, k) and contraction position q: row r. -/
theorem qk_lhs0 (j : S512x2048.Idx) (q : dot_S512x64_S64x2048_S512x2048_1_0_0_1_n_n.contr.Idx) : (dot_S512x64_S64x2048_S512x2048_1_0_0_1_n_n.lhsIdx j q 0).val = (j 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
/-- … and column q. -/
theorem qk_lhs1 (j : S512x2048.Idx) (q : dot_S512x64_S64x2048_S512x2048_1_0_0_1_n_n.contr.Idx) : (dot_S512x64_S64x2048_S512x2048_1_0_0_1_n_n.lhsIdx j q 1).val = (q ⟨0, by decide⟩).val :=
  dot_S512x64_S64x2048_S512x2048_1_0_0_1_n_n.lhsIdx_val_of_single rfl j q
/-- Right operand index: row q. -/
theorem qk_rhs0 (j : S512x2048.Idx) (q : dot_S512x64_S64x2048_S512x2048_1_0_0_1_n_n.contr.Idx) : (dot_S512x64_S64x2048_S512x2048_1_0_0_1_n_n.rhsIdx j q 0).val = (q ⟨0, by decide⟩).val :=
  dot_S512x64_S64x2048_S512x2048_1_0_0_1_n_n.rhsIdx_val_of_single rfl j q
/-- … and column k. -/
theorem qk_rhs1 (j : S512x2048.Idx) (q : dot_S512x64_S64x2048_S512x2048_1_0_0_1_n_n.contr.Idx) : (dot_S512x64_S64x2048_S512x2048_1_0_0_1_n_n.rhsIdx j q 1).val = (j 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The [512, 64] by [64, 2048] product into a zero accumulator, at entry (r, k): the sum over d of A[r, d] * B[d, k]. -/
theorem qk_apply (A : FVec Ideal S512x64 .bf16) (B : FVec Ideal S64x2048 .bf16) (r : Fin 512) (k : Fin 2048) :
    matmul dot_S512x64_S64x2048_S512x2048_1_0_0_1_n_n none A B (constant S512x2048 .f32 0x00000000#32) (ix2 r k)
      = ∑ d : Fin 64, A (ix2 r d) * B (ix2 d k) := by
  simp only [matmul]
  rw [Ideal.matmul_constant_zero_apply, ← Equiv.sum_comp (ValueIdx.contrEquiv1 dot_S512x64_S64x2048_S512x2048_1_0_0_1_n_n 64 rfl rfl).symm]
  refine Finset.sum_congr rfl fun d _ => ?_
  have hk := ValueIdx.contrEquiv1_symm_val dot_S512x64_S64x2048_S512x2048_1_0_0_1_n_n 64 rfl rfl d
  have el : dot_S512x64_S64x2048_S512x2048_1_0_0_1_n_n.lhsIdx (ix2 r k) ((ValueIdx.contrEquiv1 dot_S512x64_S64x2048_S512x2048_1_0_0_1_n_n 64 rfl rfl).symm d) = ix2 r d := funext fun a => Fin.ext (by
    match a with
    | ⟨0, _⟩ => exact qk_lhs0 _ _
    | ⟨1, _⟩ => exact (qk_lhs1 _ _).trans hk)
  have er : dot_S512x64_S64x2048_S512x2048_1_0_0_1_n_n.rhsIdx (ix2 r k) ((ValueIdx.contrEquiv1 dot_S512x64_S64x2048_S512x2048_1_0_0_1_n_n 64 rfl rfl).symm d) = ix2 d k := funext fun a => Fin.ext (by
    match a with
    | ⟨0, _⟩ => exact (qk_rhs0 _ _).trans hk
    | ⟨1, _⟩ => exact qk_rhs1 _ _)
  rw [el, er]

/-- Left operand index of the product at output (r, d) and contraction position q: row r. -/
theorem pv_lhs0 (j : S512x64.Idx) (q : dot_S512x2048_S2048x64_S512x64_1_0_0_1_n_n.contr.Idx) : (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
/-- … and column q. -/
theorem pv_lhs1 (j : S512x64.Idx) (q : dot_S512x2048_S2048x64_S512x64_1_0_0_1_n_n.contr.Idx) : (dot_S512x2048_S2048x64_S512x64_1_0_0_1_n_n.lhsIdx j q 1).val = (q ⟨0, by decide⟩).val :=
  dot_S512x2048_S2048x64_S512x64_1_0_0_1_n_n.lhsIdx_val_of_single rfl j q
/-- Right operand index: row q. -/
theorem pv_rhs0 (j : S512x64.Idx) (q : dot_S512x2048_S2048x64_S512x64_1_0_0_1_n_n.contr.Idx) : (dot_S512x2048_S2048x64_S512x64_1_0_0_1_n_n.rhsIdx j q 0).val = (q ⟨0, by decide⟩).val :=
  dot_S512x2048_S2048x64_S512x64_1_0_0_1_n_n.rhsIdx_val_of_single rfl j q
/-- … and column d. -/
theorem pv_rhs1 (j : S512x64.Idx) (q : dot_S512x2048_S2048x64_S512x64_1_0_0_1_n_n.contr.Idx) : (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The [512, 2048] by [2048, 64] product into a zero accumulator, at entry (r, d): the sum over k of A[r, k] * B[k, d]. -/
theorem pv_apply (A : FVec Ideal S512x2048 .bf16) (B : FVec Ideal S2048x64 .bf16) (r : Fin 512) (d : Fin 64) :
    matmul dot_S512x2048_S2048x64_S512x64_1_0_0_1_n_n none A B (constant S512x64 .f32 0x00000000#32) (ix2 r d)
      = ∑ k : Fin 2048, A (ix2 r k) * B (ix2 k d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun a => Fin.ext (by
    match a with
    | ⟨0, _⟩ => exact pv_lhs0 _ _
    | ⟨1, _⟩ => exact (pv_lhs1 _ _).trans hk)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun a => Fin.ext (by
    match a with
    | ⟨0, _⟩ => exact (pv_rhs0 _ _).trans hk
    | ⟨1, _⟩ => exact pv_rhs1 _ _)
  rw [el, er]

end Cert.Attn

end
-- ==== Proof.Softmax.lean ====
/- One row of masked, scaled dot-product attention over the extended reals, and the one law the two programs differ by.

   For a row of scores `s k` (k ranging over the 2048 keys) put `M = max_k s k` (the maximum taken from -inf),
   `e k = exp (s k - M)` and `L = Σ_k e k`. The attention weights are `e k / L`. The context entry for a value
   column `v` can be formed in two orders:
     * divide last:   `(Σ_k e k * v k) / L`
     * divide first:  `Σ_k (e k / L) * v k`
   On the extended reals multiplication does not distribute over addition in general, so the two orders need not
   agree at infinite entries. When every score and every value is a real number they do agree: M is then real
   (the maximum of finitely many reals, at least one of them), every `e k` is a positive real, L is a positive real,
   division by L is multiplication by the real 1/L, and `(Σ_k a k) * c = Σ_k a k * c` holds in the reals. -/
import Idealize.ShloMosaic.PureOps.Ideal

noncomputable section

namespace Cert.Attn

open Idealize.ShloMosaic

/-- The row maximum, folded from the f32 word of -inf as both programs fold it. -/
def rowMax (s : Fin 2048 → EReal) : EReal :=
  (Finset.univ : Finset (Fin 2048)).fold max (Ideal.ofBits .f32 0xFF800000#32) s

/-- The unnormalised weight of key `k`: `exp (s k - max s)`. -/
def num (s : Fin 2048 → EReal) (k : Fin 2048) : EReal := Ideal.exp (s k - rowMax s)

/-- The normaliser: the sum of the unnormalised weights. -/
def den (s : Fin 2048 → EReal) : EReal := ∑ k : Fin 2048, num s k

/-- The attention weight of key `k`. -/
def prob (s : Fin 2048 → EReal) (k : Fin 2048) : EReal := Ideal.div (num s k) (den s)

/-- A context entry with the division AFTER the sum over keys. -/
def ctxAfter (s v : Fin 2048 → EReal) : EReal := Ideal.div (∑ k : Fin 2048, num s k * v k) (den s)

/-- A context entry with each weight divided BEFORE the sum over keys. -/
def ctxBefore (s v : Fin 2048 → EReal) : EReal := ∑ k : Fin 2048, prob s k * v k

end Cert.Attn

end
-- ==== Proof.Spec.lean ====
/- The two results of masked scaled dot-product attention as whole-array functions of the four argument arrays,
   index by index: for batch b, head h, query row q,
     score b h q k = if mask[b,h,q,k] = 0 then -1e9 else (Σ_d Q[b,h,q,d] * K[b,h,k,d]) / 8,
   the attention matrix is the row softmax of the scores, and the context is the attention matrix times V. -/
import proofs.«101043_j11132555231519_2_alg».proof.Proof.Softmax
import Idealize.ShloMosaic.Lib.ValueIdx

noncomputable section

namespace Cert.Attn

open Idealize.ShloMosaic Idealize.ShloMosaic.ValueIdx

/-- A [4, 16, 2048, 64] array of extended reals (Q, K, V, the context). -/
abbrev Arr := (⟨4, ![4, 16, 2048, 64]⟩ : Shape).Idx → EReal
/-- A [4, 16, 2048, 2048] array of extended reals (the attention matrix). -/
abbrev Sq := (⟨4, ![4, 16, 2048, 2048]⟩ : Shape).Idx → EReal
/-- The [4, 16, 2048, 2048] integer mask. -/
abbrev Msk := (⟨4, ![4, 16, 2048, 2048]⟩ : Shape).Idx → BitVec 32

/-- The masked, scaled score of query row (b, h, q) against key k. -/
def score (Q K : Arr) (M : Msk) (b : Fin 4) (h : Fin 16) (q : Fin 2048) (k : Fin 2048) : EReal :=
  Scalar.select (IntOp.cmpi .eq (M (ix4 b h q k)) 0#32) (Ideal.ofBits .f32 0xCE6E6B28#32)
    (Ideal.div (∑ d : Fin 64, Q (ix4 b h q d) * K (ix4 b h k d)) (Ideal.ofBits .f32 0x41000000#32))

/-- The attention matrix. -/
def attnG (Q K : Arr) (M : Msk) : Sq := fun i => prob (score Q K M (i 0) (i 1) (i 2)) (i 3)

/-- The context, each entry divided by its row's normaliser after the sum over keys. -/
def ctxG (Q K V : Arr) (M : Msk) : Arr := fun i =>
  ctxAfter (score Q K M (i 0) (i 1) (i 2)) (fun k => V (ix4 (i 0) (i 1) k (i 3)))

/-- The context as the attention matrix times V. -/
def ctxMulG (Q K V : Arr) (M : Msk) : Arr := fun i =>
  ctxBefore (score Q K M (i 0) (i 1) (i 2)) (fun k => V (ix4 (i 0) (i 1) k (i 3)))

theorem attnG_ix4 (Q K : Arr) (M : Msk) (b : Fin 4) (h : Fin 16) (q k : Fin 2048) :
    attnG Q K M (ix4 b h q k) = prob (score Q K M b h q) k := rfl

theorem ctxG_ix4 (Q K V : Arr) (M : Msk) (b : Fin 4) (h : Fin 16) (q : Fin 2048) (d : Fin 64) :
    ctxG Q K V M (ix4 b h q d) = ctxAfter (score Q K M b h q) (fun k => V (ix4 b h k d)) := rfl

theorem ctxMulG_ix4 (Q K V : Arr) (M : Msk) (b : Fin 4) (h : Fin 16) (q : Fin 2048) (d : Fin 64) :
    ctxMulG Q K V M (ix4 b h q d) = ctxBefore (score Q K M b h q) (fun k => V (ix4 b h k d)) := rfl

end Cert.Attn

end
-- ==== Proof.Consts.lean ====
/- The float words the two programs spell differently, or whose value the proof needs, as the extended reals they
   denote: 8.0 and 0.125 (the reference divides the scores by 8.0 where the kernel multiplies them by 0.125), the
   mask fill -1e9 (some real number: only its finiteness matters), and the two infinities. -/
import Idealize.ShloMosaic.PureOps.Ideal

noncomputable section

namespace Cert.Attn

open Idealize.ShloMosaic

/-- The word of 8.0 denotes the real 8. -/
theorem ofBits_eight : Ideal.ofBits .f32 0x41000000#32 = ((8 : ℝ) : EReal) := by
  simp [Ideal.ofBits, Ideal.ieee, -EReal.coe_mul]; norm_num

/-- The word of 0.125 denotes the real 1/8. -/
theorem ofBits_eighth : Ideal.ofBits .f32 0x3E000000#32 = ((1 / 8 : ℝ) : EReal) := by
  simp [Ideal.ofBits, Ideal.ieee, -EReal.coe_mul]; norm_num

/-- The mask fill word denotes the real -10^9 exactly. -/
theorem ofBits_fill : Ideal.ofBits .f32 0xCE6E6B28#32 = ((-1000000000 : ℝ) : EReal) := by
  simp [Ideal.ofBits, Ideal.ieee, -EReal.coe_mul]; norm_num

/-- The mask fill denotes a real number. -/
theorem ofBits_fill_real : ∃ r : ℝ, Ideal.ofBits .f32 0xCE6E6B28#32 = (r : EReal) := ⟨_, ofBits_fill⟩

/-- The word 0xFF800000 denotes -inf. -/
theorem ofBits_neg_inf : Ideal.ofBits .f32 0xFF800000#32 = ⊥ := by
  simp [Ideal.ofBits, Ideal.ieee]

/-- The word 0x7F800000 denotes +inf. -/
theorem ofBits_pos_inf : Ideal.ofBits .f32 0x7F800000#32 = ⊤ := by
  simp [Ideal.ofBits, Ideal.ieee]

/-- Multiplying by 0.125 is dividing by 8.0, on every extended real. -/
theorem mul_eighth_eq_div_eight (x : EReal) :
    x * Ideal.ofBits .f32 0x3E000000#32 = Ideal.div x (Ideal.ofBits .f32 0x41000000#32) := by
  rw [ofBits_eighth, ofBits_eight, Ideal.div_coe (by norm_num : (8 : ℝ) ≠ 0)]

end Cert.Attn

end
-- ==== Proof.LibLayout.lean ====
/- Layout operations of "keepdims" column vectors and doubly unit-led blocks, read at an index built from explicit
   coordinates. Each lemma says which element of the operand an element of the result is. -/
import Idealize.ShloMosaic.Lib.Pipeline.Value
import Idealize.ShloMosaic.Lib.ValueIdx

noncomputable section

namespace Cert.LibLayout

open Idealize.ShloMosaic Idealize.ShloMosaic.ValueIdx

variable {α : Type}

/-- A [1, 1, a, b] block viewed as [a, b]: element (p, q) is element (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] value stored as a [1, 1, a, b] block: element (0, 0, p, q) is element (p, q). -/
theorem shapeCast_ab_11ab_apply {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp only [Nat.zero_mul, Nat.zero_add])

/-- A vector [a] viewed as a column [a, 1]: element (p, 0) is element p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    simp only [Nat.mul_one, Nat.add_zero])

/-- A column [a, 1] broadcast along its rows to [a, b]: element (p, q) is element (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) :=
  broadcastTo_apply x h _ _ (fun c => by
    match c with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl])

end Cert.LibLayout

end
-- ==== Proof.Scores.lean ====
/- The softmax part of the kernel body, entry by entry, for one block of 512 query rows.

   From the blocks it loads — the queries' block P0 : [1,1,512,64], the whole key slab P1 : [1,1,2048,64] and the mask
   block P2 : [1,1,512,2048] — the body forms the score matrix
     sc[r,k] = if P2[r,k] = 0 then -1e9 else (Σ_d P0[r,d] * P1[k,d]) * 0.125,
   its row maxima, the unnormalised weights exp (sc[r,k] - max_r), their row sums, and stores weights / row sum.
   Read at entry (r, k) these are the row functions of one row of scores (Softmax): num, den and prob of the row
   k ↦ bscore r k, where bscore spells the scaling as a division by 8.0 (multiplying by 0.125 is dividing by 8.0). -/
import proofs.«101043_j11132555231519_2_alg».proof.Proof.Gen.KernelIdeal.Value
import proofs.«101043_j11132555231519_2_alg».proof.Proof.Dots
import proofs.«101043_j11132555231519_2_alg».proof.Proof.Spec
import proofs.«101043_j11132555231519_2_alg».proof.Proof.Consts
import proofs.«101043_j11132555231519_2_alg».proof.Proof.LibLayout
import Idealize.ShloMosaic.Lib.Pipeline.Value

noncomputable section

namespace Cert.Attn

open Idealize.ShloMosaic Idealize.ShloMosaic.ValueIdx Cert.KernelIdeal Cert.KernelIdeal.Gen Cert.LibLayout

/-- The score of query row r of the block against key k, from the loaded blocks. -/
def bscore (P0 : Vec Ideal S1x1x512x64 .f32) (P1 : Vec Ideal S1x1x2048x64 .f32) (P2 : Vec Ideal S1x1x512x2048 .i32)
    (r : Fin 512) (k : Fin 2048) : EReal :=
  Scalar.select (IntOp.cmpi .eq (P2 (ix4 (0 : Fin 1) (0 : Fin 1) r k)) 0#32) (Ideal.ofBits .f32 0xCE6E6B28#32)
    (Ideal.div (∑ d : Fin 64, P0 (ix4 (0 : Fin 1) (0 : Fin 1) r d) * P1 (ix4 (0 : Fin 1) (0 : Fin 1) k d))
      (Ideal.ofBits .f32 0x41000000#32))

/-- The query block as the product's left operand: a [512, 64] matrix. -/
def qb (P0 : Vec Ideal S1x1x512x64 .f32) : FVec Ideal S512x64 .bf16 :=
  truncf .bf16 (shapeCast S512x64 P0 shapeCasts_S1x1x512x64_S512x64) bitsLt_bf16_f32

/-- The key slab transposed, the product's right operand: a [64, 2048] matrix. -/
def kT (P1 : Vec Ideal S1x1x2048x64 .f32) : FVec Ideal S64x2048 .bf16 :=
  transpose S64x2048 [1, 0] (truncf .bf16 (shapeCast S2048x64 P1 shapeCasts_S1x1x2048x64_S2048x64) bitsLt_bf16_f32)
    transposes_S2048x64_p1_0_S64x2048

/-- The mask block as a [512, 2048] matrix. -/
def msk (P2 : Vec Ideal S1x1x512x2048 .i32) : IVec S512x2048 32 :=
  shapeCast S512x2048 P2 shapeCasts_S1x1x512x2048_S512x2048

/-- The masked, scaled score matrix as the body computes it. -/
def sc (P0 : Vec Ideal S1x1x512x64 .f32) (P1 : Vec Ideal S1x1x2048x64 .f32) (P2 : Vec Ideal S1x1x512x2048 .i32) :
    FVec Ideal S512x2048 .f32 :=
  select (cmpi .eq (msk P2) (broadcast S512x2048 (0#32 : BitVec 32)))
    (broadcast S512x2048 (Scalar.ofBits (F := Ideal) .f32 0xCE6E6B28#32))
    (mulf (matmul dot_S512x64_S64x2048_S512x2048_1_0_0_1_n_n none (qb P0) (kT P1) (constant (F := Ideal) S512x2048 .f32 0x00000000#32))
      (broadcast S512x2048 (Scalar.ofBits (F := Ideal) .f32 0x3E000000#32)))

/-- The row maxima of the score matrix. -/
def rmax (P0 : Vec Ideal S1x1x512x64 .f32) (P1 : Vec Ideal S1x1x2048x64 .f32) (P2 : Vec Ideal S1x1x512x2048 .i32) :
    FVec Ideal S512 .f32 :=
  multiReduction .maximumf [1] S512 (sc P0 P1 P2) 0xFF800000#32 reduces_S512x2048_S512 (.inl rfl) rfl

variable (P0 : Vec Ideal S1x1x512x64 .f32) (P1 : Vec Ideal S1x1x2048x64 .f32) (P2 : Vec Ideal S1x1x512x2048 .i32)

/-- The body's unnormalised weights are exp (score - row maximum). -/
theorem pay2_eq : k0_pay2 P0 P1 P2
    = exp (subf (sc P0 P1 P2) (broadcastTo S512x2048 (shapeCast S512x1 (rmax P0 P1 P2) shapeCasts_S512_S512x1) broadcasts_S512x1_S512x2048)) := rfl

/-- Entry (r, d) of the query operand is entry (0, 0, r, d) of the block. -/
theorem qb_apply (r : Fin 512) (d : Fin 64) : qb P0 (ix2 r d) = P0 (ix4 (0 : Fin 1) (0 : Fin 1) r d) :=
  shapeCast_11ab_ab_apply P0 shapeCasts_S1x1x512x64_S512x64 r d

/-- Entry (d, k) of the transposed key operand is entry (0, 0, k, d) of the slab. -/
theorem kT_apply (d : Fin 64) (k : Fin 2048) : kT P1 (ix2 d k) = P1 (ix4 (0 : Fin 1) (0 : Fin 1) k d) := by
  unfold kT
  refine (transpose_apply [1, 0] _ transposes_S2048x64_p1_0_S64x2048 (ix2 d k) (ix2 k d) (fun b => by
    match b with
    | ⟨0, _⟩ => rfl
    | ⟨1, _⟩ => rfl)).trans ?_
  exact shapeCast_11ab_ab_apply P1 shapeCasts_S1x1x2048x64_S2048x64 k d

/-- Entry (r, k) of the mask matrix is entry (0, 0, r, k) of the block. -/
theorem msk_apply (r : Fin 512) (k : Fin 2048) : msk P2 (ix2 r k) = P2 (ix4 (0 : Fin 1) (0 : Fin 1) r k) :=
  shapeCast_11ab_ab_apply P2 shapeCasts_S1x1x512x2048_S512x2048 r k

/-- The score matrix at (r, k): masked entries are the fill, the others the scaled dot product of query row r and key
    row k; the factor 0.125 read as a division by 8.0. -/
theorem sc_apply (r : Fin 512) (k : Fin 2048) : sc P0 P1 P2 (ix2 r k) = bscore P0 P1 P2 r k := by
  unfold sc bscore
  show Scalar.select (IntOp.cmpi .eq (msk P2 (ix2 r k)) 0#32) (Ideal.ofBits .f32 0xCE6E6B28#32)
      (matmul dot_S512x64_S64x2048_S512x2048_1_0_0_1_n_n none (qb P0) (kT P1) (constant (F := Ideal) S512x2048 .f32 0x00000000#32) (ix2 r k)
        * Ideal.ofBits .f32 0x3E000000#32) = _
  rw [msk_apply, qk_apply, mul_eighth_eq_div_eight]
  refine congrArg (fun x => Scalar.select _ _ (Ideal.div x _)) (Finset.sum_congr rfl fun d _ => ?_)
  rw [qb_apply, kT_apply]

/-- Row r of the score matrix, as a function of the key. -/
theorem sc_row (r : Fin 512) : (fun k : Fin 2048 => sc P0 P1 P2 (ix2 r k)) = bscore P0 P1 P2 r :=
  funext fun k => sc_apply P0 P1 P2 r k

/-- The index a reduction over the key axis visits at row r, position k, is (r, k). -/
theorem lift_row (r : Fin 512) (k : Fin 2048) : reduces_S512x2048_S512.lift (ix1 r) k = ix2 r k :=
  funext fun a => Fin.ext (by
    match a with
    | ⟨0, _⟩ => rfl
    | ⟨1, _⟩ => rfl)

/-- The body's row maximum at row r is the row maximum of that row's scores. -/
theorem rmax_apply (r : Fin 512) : rmax P0 P1 P2 (ix1 r) = rowMax (bscore P0 P1 P2 r) := by
  unfold rmax rowMax
  refine (Ideal.multiReduction_maximumf_single (sc P0 P1 P2) 0xFF800000#32 reduces_S512x2048_S512 (.inl rfl) rfl (ix1 r)).trans ?_
  show (Finset.univ : Finset (Fin 2048)).fold max (Ideal.ofBits .f32 0xFF800000#32)
      (fun k => sc P0 P1 P2 (reduces_S512x2048_S512.lift (ix1 r) k)) = _
  refine congrArg (fun f : Fin 2048 → EReal => (Finset.univ : Finset (Fin 2048)).fold max (Ideal.ofBits .f32 0xFF800000#32) f)
    (funext fun (k : Fin 2048) => ?_)
  exact (congrArg (sc P0 P1 P2) (lift_row r k)).trans (sc_apply P0 P1 P2 r k)

/-- The body's unnormalised weight at (r, k). -/
theorem pay2_apply (r : Fin 512) (k : Fin 2048) : k0_pay2 P0 P1 P2 (ix2 r k) = num (bscore P0 P1 P2 r) k := by
  rw [pay2_eq]
  show Ideal.exp (sc P0 P1 P2 (ix2 r k)
      - broadcastTo S512x2048 (shapeCast S512x1 (rmax P0 P1 P2) shapeCasts_S512_S512x1) broadcasts_S512x1_S512x2048 (ix2 r k)) = _
  rw [broadcastTo_a1_ab_apply, shapeCast_a_a1_apply, rmax_apply, sc_apply]
  rfl

/-- The body's row sum of the weights at row r is the normaliser of that row. -/
theorem rsum_apply (r : Fin 512) :
    multiReduction .add [1] S512 (k0_pay2 P0 P1 P2) 0x00000000#32 reduces_S512x2048_S512 (.inl rfl) rfl (ix1 r)
      = den (bscore P0 P1 P2 r) := by
  refine (Ideal.multiReduction_add_single (k0_pay2 P0 P1 P2) 0x00000000#32 reduces_S512x2048_S512 (.inl rfl) rfl (ix1 r)).trans ?_
  unfold den
  show ∑ k : Fin 2048, k0_pay2 P0 P1 P2 (reduces_S512x2048_S512.lift (ix1 r) k) = _
  refine Finset.sum_congr rfl fun k _ => ?_
  rw [lift_row, pay2_apply]

/-- The row sums kept as a column: entry (r, 0) is the normaliser of row r. -/
theorem pay3_apply (r : Fin 512) : k0_pay3 P0 P1 P2 (ix2 r (0 : Fin 1)) = den (bscore P0 P1 P2 r) := by
  show shapeCast S512x1 (multiReduction .add [1] S512 (k0_pay2 P0 P1 P2) 0x00000000#32 reduces_S512x2048_S512 (.inl rfl) rfl)
      shapeCasts_S512_S512x1 (ix2 r (0 : Fin 1)) = _
  rw [shapeCast_a_a1_apply, rsum_apply]

/-- The attention block the body stores, at (0, 0, r, k): the weight of key k in row r. -/
theorem attn_block_apply (r : Fin 512) (k : Fin 2048) :
    Cert.KernelIdeal.Value.E5 P0 P1 P2 (ix4 (0 : Fin 1) (0 : Fin 1) r k) = prob (bscore P0 P1 P2 r) k := by
  have e0 : Cert.KernelIdeal.Value.ix5_0 (ix4 (0 : Fin 1) (0 : Fin 1) r k) = ix2 r k := funext fun a => Fin.ext (by
    match a with
    | ⟨0, _⟩ => rfl
    | ⟨1, _⟩ => rfl)
  have e1 : Cert.KernelIdeal.Value.ix5_1 (ix4 (0 : Fin 1) (0 : Fin 1) r k) = ix1 r := funext fun a => Fin.ext (by
    match a with
    | ⟨0, _⟩ => rfl)
  show Ideal.div (k0_pay2 P0 P1 P2 (Cert.KernelIdeal.Value.ix5_0 (ix4 (0 : Fin 1) (0 : Fin 1) r k)))
      (multiReduction .add [1] S512 (k0_pay2 P0 P1 P2) 0x00000000#32 reduces_S512x2048_S512 (.inl rfl) rfl
        (Cert.KernelIdeal.Value.ix5_1 (ix4 (0 : Fin 1) (0 : Fin 1) r k))) = _
  rw [e0, e1, pay2_apply, rsum_apply]
  rfl

end Cert.Attn

end
-- ==== Proof.Context.lean ====
/- The context part of the kernel body, entry by entry: the unnormalised weights of a block of 512 query rows times the
   value slab P3 : [1,1,2048,64], each entry then divided by its row's normaliser — the division AFTER the sum over keys. -/
import proofs.«101043_j11132555231519_2_alg».proof.Proof.Scores

noncomputable section

namespace Cert.Attn

open Idealize.ShloMosaic Idealize.ShloMosaic.ValueIdx Cert.KernelIdeal Cert.KernelIdeal.Gen Cert.LibLayout

variable (P0 : Vec Ideal S1x1x512x64 .f32) (P1 : Vec Ideal S1x1x2048x64 .f32) (P2 : Vec Ideal S1x1x512x2048 .i32)
  (P3 : Vec Ideal S1x1x2048x64 .f32)

/-- The context payload as the tree of vector operations: weights times values, divided by the column of row sums,
    laid out as a [1, 1, 512, 64] block. -/
theorem pay1_eq (v20 : FVec Ideal S512x2048 .f32) (v22 : FVec Ideal S512x1 .f32) (v29 : FVec Ideal S2048x64 .f32) :
    k0_pay1 v20 v22 v29
      = shapeCast S1x1x512x64
          (divf (matmul dot_S512x2048_S2048x64_S512x64_1_0_0_1_n_n none (truncf .bf16 v20 bitsLt_bf16_f32) (truncf .bf16 v29 bitsLt_bf16_f32)
              (constant (F := Ideal) S512x64 .f32 0x00000000#32))
            (broadcastTo S512x64 v22 broadcasts_S512x1_S512x64))
          shapeCasts_S512x64_S1x1x512x64 := rfl

/-- The context block the body stores, at (0, 0, r, d): (Σ_k weight[r,k] * P3[k,d]) / normaliser[r]. -/
theorem ctx_block_apply (r : Fin 512) (d : Fin 64) :
    k0_pay1 (k0_pay2 P0 P1 P2) (k0_pay3 P0 P1 P2) (k0_pay5 P3) (ix4 (0 : Fin 1) (0 : Fin 1) r d)
      = ctxAfter (bscore P0 P1 P2 r) (fun k => P3 (ix4 (0 : Fin 1) (0 : Fin 1) k d)) := by
  rw [pay1_eq, shapeCast_ab_11ab_apply]
  show Ideal.div
      (matmul dot_S512x2048_S2048x64_S512x64_1_0_0_1_n_n none (truncf .bf16 (k0_pay2 P0 P1 P2) bitsLt_bf16_f32)
        (truncf .bf16 (k0_pay5 P3) bitsLt_bf16_f32) (constant (F := Ideal) S512x64 .f32 0x00000000#32) (ix2 r d))
      (broadcastTo S512x64 (k0_pay3 P0 P1 P2) broadcasts_S512x1_S512x64 (ix2 r d)) = _
  rw [pv_apply, broadcastTo_a1_ab_apply, pay3_apply]
  unfold ctxAfter
  refine congrArg (fun x => Ideal.div x _) (Finset.sum_congr rfl fun k _ => ?_)
  show k0_pay2 P0 P1 P2 (ix2 r k) * shapeCast S2048x64 P3 shapeCasts_S1x1x2048x64_S2048x64 (ix2 k d) = _
  rw [pay2_apply, shapeCast_11ab_ab_apply]

end Cert.Attn

end
-- ==== Proof.BodyOut.lean ====
/- What the kernel body leaves in its two output blocks for one grid point, as functions of the four input blocks:
   the attention block holds each row's weights, the context block each row's weighted values divided by the row's
   normaliser. The body loads and stores whole blocks, so a load reads the block and the one store leaves its payload. -/
import proofs.«101043_j11132555231519_2_alg».proof.Proof.Context

noncomputable section

namespace Cert.Attn

open Idealize.ShloMosaic Idealize.ShloMosaic.ValueIdx Cert.KernelIdeal Cert.KernelIdeal.Gen Cert.LibLayout

/-- The zero offsets of a whole-block access, as a constant function. -/
theorem zero_offsets : (![0, 0, 0, 0] : Fin 4 → Nat) = fun _ => 0 := funext fun a => by fin_cases a <;> rfl

variable (x0 : Vec Ideal S1x1x512x64 .f32) (x1 x2 : Vec Ideal S1x1x2048x64 .f32) (x3 : Vec Ideal S1x1x512x2048 .i32)

/-- The attention block after the body, at (0, 0, r, k): the weight of key k in query row r of the block. -/
theorem attn_out_apply (r : Fin 512) (k : Fin 2048) :
    out0_5 x0 x1 x2 x3 (ix4 (0 : Fin 1) (0 : Fin 1) r k) = prob (bscore x0 x1 x3 r) k := by
  unfold out0_5
  rw [Cert.KernelIdeal.Value.canon5_eq]
  simp only [View.ld_unit_zero (S := S1x1x512x64) zero_offsets, View.ld_unit_zero (S := S1x1x2048x64) zero_offsets,
    View.ld_unit_zero (S := S1x1x512x2048) zero_offsets]
  exact attn_block_apply x0 x1 x3 r k

/-- The context block after the body, at (0, 0, r, d): row r's weighted sum of column d of the value slab, divided by
    the row's normaliser. -/
theorem ctx_out_apply (r : Fin 512) (d : Fin 64) :
    out0_4 x0 x1 x2 x3 (ix4 (0 : Fin 1) (0 : Fin 1) r d)
      = ctxAfter (bscore x0 x1 x3 r) (fun k => x2 (ix4 (0 : Fin 1) (0 : Fin 1) k d)) := by
  unfold out0_4
  rw [View.canon_unit_zero zero_offsets]
  simp only [View.ld_unit_zero (S := S1x1x512x64) zero_offsets, View.ld_unit_zero (S := S1x1x2048x64) zero_offsets,
    View.ld_unit_zero (S := S1x1x512x2048) zero_offsets]
  exact ctx_block_apply x0 x1 x3 x2 r d

end Cert.Attn

end
-- ==== Proof.GridIdx.lean ====
/- The grid has 4 * 16 * 4 = 256 points, visited in row-major order: point t is batch t / 64, head (t / 4) % 16 and
   query tile t % 4. The query, mask, context and attention windows take the block (batch, head, tile, 0) of their
   arrays; the key and value windows take the whole slab (batch, head, 0, 0). Decided once over the 256 points. -/
import proofs.«101043_j11132555231519_2_alg».proof.Proof.Gen.KernelIdeal.Value

noncomputable section

namespace Cert.Attn

open Idealize.ShloMosaic Cert.KernelIdeal Cert.KernelIdeal.Gen

/-- Window 0's block index at grid point t, per axis. -/
theorem idx_win0 : ∀ t : Fin cfg0.N, win0_0.index t (0 : Fin 4) = t.val / 64 ∧ win0_0.index t (1 : Fin 4) = t.val / 4 % 16
    ∧ win0_0.index t (2 : Fin 4) = t.val % 4 ∧ win0_0.index t (3 : Fin 4) = 0 :=
  (by decide +kernel : ∀ t : Fin grid0.N, _)

/-- Window 1's block index at grid point t, per axis. -/
theorem idx_win1 : ∀ t : Fin cfg0.N, win0_1.index t (0 : Fin 4) = t.val / 64 ∧ win0_1.index t (1 : Fin 4) = t.val / 4 % 16
    ∧ win0_1.index t (2 : Fin 4) = 0 ∧ win0_1.index t (3 : Fin 4) = 0 :=
  (by decide +kernel : ∀ t : Fin grid0.N, _)

/-- Window 2's block index at grid point t, per axis. -/
theorem idx_win2 : ∀ t : Fin cfg0.N, win0_2.index t (0 : Fin 4) = t.val / 64 ∧ win0_2.index t (1 : Fin 4) = t.val / 4 % 16
    ∧ win0_2.index t (2 : Fin 4) = 0 ∧ win0_2.index t (3 : Fin 4) = 0 :=
  (by decide +kernel : ∀ t : Fin grid0.N, _)

/-- Window 3's block index at grid point t, per axis. -/
theorem idx_win3 : ∀ t : Fin cfg0.N, win0_3.index t (0 : Fin 4) = t.val / 64 ∧ win0_3.index t (1 : Fin 4) = t.val / 4 % 16
    ∧ win0_3.index t (2 : Fin 4) = t.val % 4 ∧ win0_3.index t (3 : Fin 4) = 0 :=
  (by decide +kernel : ∀ t : Fin grid0.N, _)

/-- Window 4's block index at grid point t, per axis. -/
theorem idx_win4 : ∀ t : Fin cfg0.N, win0_4.index t (0 : Fin 4) = t.val / 64 ∧ win0_4.index t (1 : Fin 4) = t.val / 4 % 16
    ∧ win0_4.index t (2 : Fin 4) = t.val % 4 ∧ win0_4.index t (3 : Fin 4) = 0 :=
  (by decide +kernel : ∀ t : Fin grid0.N, _)

/-- Window 5's block index at grid point t, per axis. -/
theorem idx_win5 : ∀ t : Fin cfg0.N, win0_5.index t (0 : Fin 4) = t.val / 64 ∧ win0_5.index t (1 : Fin 4) = t.val / 4 % 16
    ∧ win0_5.index t (2 : Fin 4) = t.val % 4 ∧ win0_5.index t (3 : Fin 4) = 0 :=
  (by decide +kernel : ∀ t : Fin grid0.N, _)

end Cert.Attn

end
-- ==== Proof.Blocks.lean ====
/- One grid point's work, read against the whole arrays. Point t handles batch b = t / 64, head h = (t / 4) % 16 and the
   512 query rows of tile t % 4: its query and mask blocks are rows (t % 4) * 512 + r of Q[b,h] and mask[b,h], its key and
   value slabs are all of K[b,h] and V[b,h]. So the score of block row r against key k is the array's score of query row
   q = (t % 4) * 512 + r, and what the point writes back is the block of the attention matrix, and of the context, at
   those rows. -/
import proofs.«101043_j11132555231519_2_alg».proof.Proof.BodyOut
import proofs.«101043_j11132555231519_2_alg».proof.Proof.GridIdx

noncomputable section

namespace Cert.Attn

open Idealize.ShloMosaic Idealize.ShloMosaic.ValueIdx Idealize.ShloMosaic.TcCoe Cert.KernelIdeal Cert.KernelIdeal.Gen Cert.LibLayout
open Idealize.ShloMosaic.Pipeline (Dat)

variable (m : (ℓ : Loc nD τ sig) → Buf (Elt Ideal) ℓ)

/-- An index of a block whose two leading axes have extent one is (0, 0, its row, its column). -/
theorem eq_ix4_unit_led {a b : ℕ} (y : (⟨4, ![1, 1, a, b]⟩ : Shape).Idx) : y = ix4 (0 : Fin 1) (0 : Fin 1) (y 2) (y 3) :=
  funext fun d => by
    match d with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
    | ⟨3, _⟩ => rfl

/-- The query block at (0, 0, r, d) is Q[b, h, q, d], q the block row's place in the array. -/
theorem read_q (c : Dev nD) (t : Fin cfg0.N) (b : Fin 4) (h : Fin 16) (hb : t.val / 64 = b.val) (hh : t.val / 4 % 16 = h.val)
    (r : Fin 512) (d : Fin 64) (q : Fin 2048) (hq : t.val % 4 * 512 + r.val = q.val) :
    iblk m c 0 t (ix4 (0 : Fin 1) (0 : Fin 1) r d) = V m c main_arg0 (ix4 b h q d) := by
  obtain ⟨e0, e1, e2, e3⟩ := idx_win0 t
  show V m c main_arg0 (((cfg0.win 0).blk t).view.emb (ix4 (0 : Fin 1) (0 : Fin 1) r d)) = V m c main_arg0 (ix4 b h q d)
  refine congrArg (V m c main_arg0) (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * r.val = q.val; omega
  | ⟨3, _⟩ => show win0_0.index t (3 : Fin 4) * 64 + 1 * d.val = d.val; omega

/-- The key slab at (0, 0, k, d) is K[b, h, k, d]. -/
theorem read_k (c : Dev nD) (t : Fin cfg0.N) (b : Fin 4) (h : Fin 16) (hb : t.val / 64 = b.val) (hh : t.val / 4 % 16 = h.val)
    (k : Fin 2048) (d : Fin 64)  :
    iblk m c 1 t (ix4 (0 : Fin 1) (0 : Fin 1) k d) = V m c main_arg1 (ix4 b h k d) := by
  obtain ⟨e0, e1, e2, e3⟩ := idx_win1 t
  show V m c main_arg1 (((cfg0.win 1).blk t).view.emb (ix4 (0 : Fin 1) (0 : Fin 1) k d)) = V m c main_arg1 (ix4 b h k d)
  refine congrArg (V m c main_arg1) (funext fun a => Fin.ext ?_)
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * k.val = k.val; omega
  | ⟨3, _⟩ => show win0_1.index t (3 : Fin 4) * 64 + 1 * d.val = d.val; omega

/-- The value slab at (0, 0, k, d) is V[b, h, k, d]. -/
theorem read_v (c : Dev nD) (t : Fin cfg0.N) (b : Fin 4) (h : Fin 16) (hb : t.val / 64 = b.val) (hh : t.val / 4 % 16 = h.val)
    (k : Fin 2048) (d : Fin 64)  :
    iblk m c 2 t (ix4 (0 : Fin 1) (0 : Fin 1) k d) = V m c main_arg2 (ix4 b h k d) := by
  obtain ⟨e0, e1, e2, e3⟩ := idx_win2 t
  show V m c main_arg2 (((cfg0.win 2).blk t).view.emb (ix4 (0 : Fin 1) (0 : Fin 1) k d)) = V m c main_arg2 (ix4 b h k d)
  refine congrArg (V m c main_arg2) (funext fun a => Fin.ext ?_)
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * k.val = k.val; omega
  | ⟨3, _⟩ => show win0_2.index t (3 : Fin 4) * 64 + 1 * d.val = d.val; omega

/-- The mask block at (0, 0, r, k) is mask[b, h, q, k]. -/
theorem read_mask (c : Dev nD) (t : Fin cfg0.N) (b : Fin 4) (h : Fin 16) (hb : t.val / 64 = b.val) (hh : t.val / 4 % 16 = h.val)
    (r : Fin 512) (k : Fin 2048) (q : Fin 2048) (hq : t.val % 4 * 512 + r.val = q.val) :
    iblk m c 3 t (ix4 (0 : Fin 1) (0 : Fin 1) r k) = V m c main_arg3 (ix4 b h q k) := by
  obtain ⟨e0, e1, e2, e3⟩ := idx_win3 t
  show V m c main_arg3 (((cfg0.win 3).blk t).view.emb (ix4 (0 : Fin 1) (0 : Fin 1) r k)) = V m c main_arg3 (ix4 b h q k)
  refine congrArg (V m c main_arg3) (funext fun a => Fin.ext ?_)
  match a with
  | ⟨0, _⟩ => show win0_3.index t (0 : Fin 4) * 1 + 1 * 0 = b.val; omega
  | ⟨1, _⟩ => show win0_3.index t (1 : Fin 4) * 1 + 1 * 0 = h.val; omega
  | ⟨2, _⟩ => show win0_3.index t (2 : Fin 4) * 512 + 1 * r.val = q.val; omega
  | ⟨3, _⟩ => show win0_3.index t (3 : Fin 4) * 2048 + 1 * k.val = k.val; omega

/-- The block's score of row r is the arrays' score of query row q. -/
theorem bscore_point (c : Dev nD) (t : Fin cfg0.N) (b : Fin 4) (h : Fin 16) (hb : t.val / 64 = b.val) (hh : t.val / 4 % 16 = h.val)
    (r : Fin 512) (q : Fin 2048) (hq : t.val % 4 * 512 + r.val = q.val) :
    bscore (iblk m c 0 t) (iblk m c 1 t) (iblk m c 3 t) r
      = score (V m c main_arg0) (V m c main_arg1) (V m c main_arg3) b h q := by
  funext k
  unfold bscore score
  rw [read_mask m c t b h hb hh r k q hq]
  refine congrArg (fun x => Scalar.select _ _ (Ideal.div x _)) (Finset.sum_congr rfl fun d _ => ?_)
  rw [read_q m c t b h hb hh r d q hq, read_k m c t b h hb hh k d]

/-- WHAT POINT t WRITES BACK to the attention array is its block of the attention matrix of the argument arrays. -/
theorem attn_flushed (c : Dev nD) (t : Fin cfg0.N) :
    (dats m 0 c).flushed 5 t
      = ((cfg0.win 5).blk t).view.read (Elt Ideal) (attnG (V m c main_arg0) (V m c main_arg1) (V m c main_arg3)) := by
  rw [Cert.KernelIdeal.Value.flushed5]
  have hN : t.val < 256 := by have h : t.val < grid0.N := t.isLt; have e : grid0.N = 256 := N_0; omega
  obtain ⟨e0, e1, e2, e3⟩ := idx_win5 t
  funext y
  obtain ⟨r, k, rfl⟩ : ∃ (r : Fin 512) (k : Fin 2048), y = ix4 (0 : Fin 1) (0 : Fin 1) r k := ⟨y 2, y 3, eq_ix4_unit_led y⟩
  show out0_5 (iblk m c 0 t) (iblk m c 1 t) (iblk m c 2 t) (iblk m c 3 t) (ix4 (0 : Fin 1) (0 : Fin 1) r k)
      = attnG (V m c main_arg0) (V m c main_arg1) (V m c main_arg3) (((cfg0.win 5).blk t).view.emb (ix4 (0 : Fin 1) (0 : Fin 1) r k))
  have hemb : ((cfg0.win 5).blk t).view.emb (ix4 (0 : Fin 1) (0 : Fin 1) r k)
      = ix4 (⟨t.val / 64, by omega⟩ : Fin 4) (⟨t.val / 4 % 16, by omega⟩ : Fin 16) (⟨t.val % 4 * 512 + r.val, by have := r.isLt; omega⟩ : Fin 2048) k :=
    funext fun a => Fin.ext (by
      match a with
      | ⟨0, _⟩ => show win0_5.index t (0 : Fin 4) * 1 + 1 * 0 = t.val / 64; omega
      | ⟨1, _⟩ => show win0_5.index t (1 : Fin 4) * 1 + 1 * 0 = t.val / 4 % 16; omega
      | ⟨2, _⟩ => show win0_5.index t (2 : Fin 4) * 512 + 1 * r.val = t.val % 4 * 512 + r.val; omega
      | ⟨3, _⟩ => show win0_5.index t (3 : Fin 4) * 2048 + 1 * k.val = k.val; omega)
  rw [hemb, attnG_ix4, attn_out_apply (iblk m c 0 t) (iblk m c 1 t) (iblk m c 2 t) (iblk m c 3 t) r k,
    bscore_point m c t ⟨t.val / 64, by omega⟩ ⟨t.val / 4 % 16, by omega⟩ rfl rfl r ⟨t.val % 4 * 512 + r.val, by have := r.isLt; omega⟩ rfl]

/-- WHAT POINT t WRITES BACK to the context array is its block of the context of the argument arrays. -/
theorem ctx_flushed (c : Dev nD) (t : Fin cfg0.N) :
    (dats m 0 c).flushed 4 t
      = ((cfg0.win 4).blk t).view.read (Elt Ideal)
          (ctxG (V m c main_arg0) (V m c main_arg1) (V m c main_arg2) (V m c main_arg3)) := by
  rw [Cert.KernelIdeal.Value.flushed4]
  have hN : t.val < 256 := by have h : t.val < grid0.N := t.isLt; have e : grid0.N = 256 := N_0; omega
  obtain ⟨e0, e1, e2, e3⟩ := idx_win4 t
  funext y
  obtain ⟨r, d, rfl⟩ : ∃ (r : Fin 512) (d : Fin 64), y = ix4 (0 : Fin 1) (0 : Fin 1) r d := ⟨y 2, y 3, eq_ix4_unit_led y⟩
  show out0_4 (iblk m c 0 t) (iblk m c 1 t) (iblk m c 2 t) (iblk m c 3 t) (ix4 (0 : Fin 1) (0 : Fin 1) r d)
      = ctxG (V m c main_arg0) (V m c main_arg1) (V m c main_arg2) (V m c main_arg3)
          (((cfg0.win 4).blk t).view.emb (ix4 (0 : Fin 1) (0 : Fin 1) r d))
  have hemb : ((cfg0.win 4).blk t).view.emb (ix4 (0 : Fin 1) (0 : Fin 1) r d)
      = ix4 (⟨t.val / 64, by omega⟩ : Fin 4) (⟨t.val / 4 % 16, by omega⟩ : Fin 16) (⟨t.val % 4 * 512 + r.val, by have := r.isLt; omega⟩ : Fin 2048) d :=
    funext fun a => Fin.ext (by
      match a with
      | ⟨0, _⟩ => show win0_4.index t (0 : Fin 4) * 1 + 1 * 0 = t.val / 64; omega
      | ⟨1, _⟩ => show win0_4.index t (1 : Fin 4) * 1 + 1 * 0 = t.val / 4 % 16; omega
      | ⟨2, _⟩ => show win0_4.index t (2 : Fin 4) * 512 + 1 * r.val = t.val % 4 * 512 + r.val; omega
      | ⟨3, _⟩ => show win0_4.index t (3 : Fin 4) * 64 + 1 * d.val = d.val; omega)
  rw [hemb, ctxG_ix4, ctx_out_apply (iblk m c 0 t) (iblk m c 1 t) (iblk m c 2 t) (iblk m c 3 t) r d,
    bscore_point m c t ⟨t.val / 64, by omega⟩ ⟨t.val / 4 % 16, by omega⟩ rfl rfl r ⟨t.val % 4 * 512 + r.val, by have := r.isLt; omega⟩ rfl]
  refine congrArg (ctxAfter _) (funext fun k => ?_)
  exact read_v m c t ⟨t.val / 64, by omega⟩ ⟨t.val / 4 % 16, by omega⟩ rfl rfl k d

end Cert.Attn

end
-- ==== Proof.Cover.lean ====
/- The blocks of each output window tile its array. The grid's 256 points are (batch, head, query tile) in row-major
   order, and point t writes back the block (batch, head, tile, 0) of the context array (blocks of 1 x 1 x 512 x 64)
   and of the attention array (blocks of 1 x 1 x 512 x 2048). An index (b, h, q, d) therefore lies in the block of the
   point t = (b * 16 + h) * 4 + q / 512: there t / 64 = b, (t / 4) % 16 = h and t % 4 = q / 512, and
   (q / 512) * 512 ≤ q < (q / 512) * 512 + 512, while the last axis is one block wide. -/
import proofs.«101043_j11132555231519_2_alg».proof.Proof.GridIdx

noncomputable section

namespace Cert.Attn

open Idealize.ShloMosaic Cert.KernelIdeal Cert.KernelIdeal.Gen

/-- An index of the context array is in point t's block iff each coordinate is in the block's range on its axis. -/
theorem mem_blk_ctx (t : Fin cfg0.N) (i : S4x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- An index of the attention array is in point t's block iff each coordinate is in the block's range on its axis. -/
theorem mem_blk_attn (t : Fin cfg0.N) (i : S4x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

/-- Every index (b, h, q, d) of the context array lies in the block some grid point writes back: the point
    (b * 16 + h) * 4 + q / 512, whose block is (b, h, q / 512, 0). -/
theorem cover_ctx (i : S4x16x2048x64.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 2048 := (i 2).isLt
  have h3 : (i 3).val < 64 := (i 3).isLt
  have hN : grid0.N = 256 := N_0
  have hlt : ((i 0).val * 16 + (i 1).val) * 4 + (i 2).val / 512 < cfg0.N := by
    show _ < grid0.N
    omega
  obtain ⟨t, ht⟩ : ∃ t : Fin cfg0.N, t.val = ((i 0).val * 16 + (i 1).val) * 4 + (i 2).val / 512 :=
    ⟨⟨_, hlt⟩, rfl⟩
  obtain ⟨e0, e1, e2, e3⟩ := idx_win4 t
  refine ⟨t, flush0_4 t, ?_⟩
  rw [mem_blk_ctx]
  intro a
  match a with
  | ⟨0, _⟩ =>
    show win0_4.index t (0 : Fin 4) * 1 ≤ (i 0).val ∧ (i 0).val < win0_4.index t (0 : Fin 4) * 1 + 1
    omega
  | ⟨1, _⟩ =>
    show win0_4.index t (1 : Fin 4) * 1 ≤ (i 1).val ∧ (i 1).val < win0_4.index t (1 : Fin 4) * 1 + 1
    omega
  | ⟨2, _⟩ =>
    show win0_4.index t (2 : Fin 4) * 512 ≤ (i 2).val ∧ (i 2).val < win0_4.index t (2 : Fin 4) * 512 + 512
    omega
  | ⟨3, _⟩ =>
    show win0_4.index t (3 : Fin 4) * 64 ≤ (i 3).val ∧ (i 3).val < win0_4.index t (3 : Fin 4) * 64 + 64
    omega

/-- Every index (b, h, q, k) of the attention array lies in the block some grid point writes back: the point
    (b * 16 + h) * 4 + q / 512, whose block is (b, h, q / 512, 0). -/
theorem cover_attn (i : S4x16x2048x2048.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 2048 := (i 2).isLt
  have h3 : (i 3).val < 2048 := (i 3).isLt
  have hN : grid0.N = 256 := N_0
  have hlt : ((i 0).val * 16 + (i 1).val) * 4 + (i 2).val / 512 < cfg0.N := by
    show _ < grid0.N
    omega
  obtain ⟨t, ht⟩ : ∃ t : Fin cfg0.N, t.val = ((i 0).val * 16 + (i 1).val) * 4 + (i 2).val / 512 :=
    ⟨⟨_, hlt⟩, rfl⟩
  obtain ⟨e0, e1, e2, e3⟩ := idx_win5 t
  refine ⟨t, flush0_5 t, ?_⟩
  rw [mem_blk_attn]
  intro a
  match a with
  | ⟨0, _⟩ =>
    show win0_5.index t (0 : Fin 4) * 1 ≤ (i 0).val ∧ (i 0).val < win0_5.index t (0 : Fin 4) * 1 + 1
    omega
  | ⟨1, _⟩ =>
    show win0_5.index t (1 : Fin 4) * 1 ≤ (i 1).val ∧ (i 1).val < win0_5.index t (1 : Fin 4) * 1 + 1
    omega
  | ⟨2, _⟩ =>
    show win0_5.index t (2 : Fin 4) * 512 ≤ (i 2).val ∧ (i 2).val < win0_5.index t (2 : Fin 4) * 512 + 512
    omega
  | ⟨3, _⟩ =>
    show win0_5.index t (3 : Fin 4) * 2048 ≤ (i 3).val ∧ (i 3).val < win0_5.index t (3 : Fin 4) * 2048 + 2048
    omega

end Cert.Attn

end
-- ==== Proof.KernelRun.lean ====
/- The kernel's run, read as whole arrays. Each grid point writes back its block of the context and of the attention matrix
   (Blocks), and the 256 blocks of each output window tile its array (Cover); so after the run the context array holds
   ctxG and the attention array holds attnG of the argument arrays, which are left as they were. -/
import proofs.«101043_j11132555231519_2_alg».proof.Proof.Blocks
import proofs.«101043_j11132555231519_2_alg».proof.Proof.Cover

noncomputable section

namespace Cert.Attn

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The context array after the run. -/
theorem ctx_final (c : Dev nD) :
    (dats m 0 c).arrAt 4 cfg0.N = ctxG (m ((c : Thread nD τ).loc main_arg0)) (m ((c : Thread nD τ).loc main_arg1)) (m ((c : Thread nD τ).loc main_arg2)) (m ((c : Thread nD τ).loc main_arg3)) :=
  (dats m 0 c).arrAt_eq_of_cover 4 (ctxG (V m c main_arg0) (V m c main_arg1) (V m c main_arg2) (V m c main_arg3))
    (fun t _ => ctx_flushed m c t) cover_ctx

/-- The attention array after the run. -/
theorem attn_final (c : Dev nD) :
    (dats m 0 c).arrAt 5 cfg0.N = attnG (m ((c : Thread nD τ).loc main_arg0)) (m ((c : Thread nD τ).loc main_arg1)) (m ((c : Thread nD τ).loc main_arg3)) :=
  (dats m 0 c).arrAt_eq_of_cover 5 (attnG (V m c main_arg0) (V m c main_arg1) (V m c main_arg3))
    (fun t _ => attn_flushed m c t) cover_attn

/-- Every weakly fair execution of the idealized kernel terminates with the context at ctxG and the attention matrix at
    attnG of the argument arrays, the arguments unchanged. -/
theorem kernel_run : θ_run defs (onTc (τ := τ) (main (F := Ideal))) ⟨m, fun _ => 0, ρ⟩ fun r => ∀ c : Dev nD,
      r.2.mem ((c : Thread nD τ).loc main_v0_0) = ctxG (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = attnG (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (ctx_final m c), (h c).2.1.trans (attn_final m c), (h c).2.2⟩)
    (Cert.KernelIdeal.Value.run_blocks m ρ)

end Cert.Attn

end
-- ==== Proof.RefValue.lean ====
/- The reference program read index by index is the specification's attention.

   The reference computes, for batch b, head h, query row q and key k,
     v5[b,h,q,k]  = if mask[b,h,q,k] = 0 then -1e9 else (Σ_d Q[b,h,q,d] * K[b,h,k,d]) / 8      (the masked, scaled score),
     v8[b,h,q]    = max(-inf, max_k v5[b,h,q,k]) = max_k v5[b,h,q,k]                              (the row maximum),
     v12[b,h,q,k] = exp (v5[b,h,q,k] - v8[b,h,q])                                                 (the unnormalised weight),
     v13[b,h,q]   = 0 + Σ_k v12[b,h,q,k]                                                          (the normaliser),
     v16[b,h,q,k] = v12[b,h,q,k] / v13[b,h,q]                                                     (the attention matrix),
     v17[b,h,q,d] = Σ_k v16[b,h,q,k] * V[b,h,k,d]                                                 (the context).
   Each line is read off the generated one-operation-at-a-time statement of the reference at literal coordinates;
   the only line that is not a reading is the row maximum, where a fold of `max` from a value is at least that
   value, so taking the maximum with -inf once more changes nothing. The float words stay as words on both sides. -/
import proofs.«101043_j11132555231519_2_alg».proof.Proof.Spec
import proofs.«101043_j11132555231519_2_alg».proof.Proof.Gen.ReferenceIdeal.Read
import Idealize.ShloMosaic.PureOps.Ideal.Laws
import Idealize.ShloMosaic.PureOps.Reduce
import Idealize.ShloMosaic.Lib.ValueIdx

noncomputable section

namespace Cert.Attn

open Idealize.ShloMosaic Idealize.ShloMosaic.ValueIdx
open Cert.ReferenceIdeal Cert.ReferenceIdeal.Gen Cert.ReferenceIdeal.Read

/-! ## The operand indices at literal coordinates -/

/-- The left operand index of the first product at (b, h, q, k) and contraction coordinate d is (b, h, q, d). -/
theorem lidx_v0_ix4 (b : Fin 4) (h : Fin 16) (q k : Fin 2048) (d : Fin 64) :
    lidx_main_v0 (ix4 b h q k) d = ix4 b h q d :=
  funext fun a => Fin.ext (by match a with | ⟨0, _⟩ => rfl | ⟨1, _⟩ => rfl | ⟨2, _⟩ => rfl | ⟨3, _⟩ => rfl)

/-- The right operand index of the first product at (b, h, q, k) and contraction coordinate d is (b, h, k, d). -/
theorem ridx_v0_ix4 (b : Fin 4) (h : Fin 16) (q k : Fin 2048) (d : Fin 64) :
    ridx_main_v0 (ix4 b h q k) d = ix4 b h k d :=
  funext fun a => Fin.ext (by match a with | ⟨0, _⟩ => rfl | ⟨1, _⟩ => rfl | ⟨2, _⟩ => rfl | ⟨3, _⟩ => rfl)

/-- The row index (b, h, q) of the two keepdims broadcasts read at (b, h, q, k) (the row maximum's). -/
theorem idx_v9_v10_ix4 (b : Fin 4) (h : Fin 16) (q k : Fin 2048) :
    idx_main_v9 (idx_main_v10 (ix4 b h q k)) = ix3 b h q :=
  funext fun a => Fin.ext (by match a with | ⟨0, _⟩ => rfl | ⟨1, _⟩ => rfl | ⟨2, _⟩ => rfl)

/-- The row index (b, h, q) of the two keepdims broadcasts read at (b, h, q, k) (the normaliser's). -/
theorem idx_v14_v15_ix4 (b : Fin 4) (h : Fin 16) (q k : Fin 2048) :
    idx_main_v14 (idx_main_v15 (ix4 b h q k)) = ix3 b h q :=
  funext fun a => Fin.ext (by match a with | ⟨0, _⟩ => rfl | ⟨1, _⟩ => rfl | ⟨2, _⟩ => rfl)

/-- The summand index of the normaliser at row (b, h, q) and key k is (b, h, q, k). -/
theorem idx_v13_ix3 (b : Fin 4) (h : Fin 16) (q k : Fin 2048) :
    idx_main_v13 (ix3 b h q) k = ix4 b h q k :=
  funext fun a => Fin.ext (by match a with | ⟨0, _⟩ => rfl | ⟨1, _⟩ => rfl | ⟨2, _⟩ => rfl | ⟨3, _⟩ => rfl)

/-- The left operand index of the second product at (b, h, q, d) and key k is (b, h, q, k). -/
theorem lidx_v17_ix4 (b : Fin 4) (h : Fin 16) (q : Fin 2048) (d : Fin 64) (k : Fin 2048) :
    lidx_main_v17 (ix4 b h q d) k = ix4 b h q k :=
  funext fun a => Fin.ext (by match a with | ⟨0, _⟩ => rfl | ⟨1, _⟩ => rfl | ⟨2, _⟩ => rfl | ⟨3, _⟩ => rfl)

/-- The right operand index of the second product at (b, h, q, d) and key k is (b, h, k, d). -/
theorem ridx_v17_ix4 (b : Fin 4) (h : Fin 16) (q : Fin 2048) (d : Fin 64) (k : Fin 2048) :
    ridx_main_v17 (ix4 b h q d) k = ix4 b h k d :=
  funext fun a => Fin.ext (by match a with | ⟨0, _⟩ => rfl | ⟨1, _⟩ => rfl | ⟨2, _⟩ => rfl | ⟨3, _⟩ => rfl)

/-! ## The score -/

/-- The reference's masked, scaled product at (b, h, q, k) is the specification's score:
    -1e9 where the mask is 0, else (Σ_d Q[b,h,q,d] * K[b,h,k,d]) / 8. -/
theorem ref_score (x0 x1 : Arr) (x3 : Msk) (b : Fin 4) (h : Fin 16) (q k : Fin 2048) :
    val_main_v5 (F := Ideal) x0 x1 x3 (ix4 b h q k) = score x0 x1 x3 b h q k := by
  rw [val_main_v5_apply, val_main_v4_apply, val_main_v3_apply, val_main_c_apply, val_main_call0_v0_apply,
    val_main_cst_0_apply, val_main_v2_apply, val_main_v0_apply, val_main_v1_apply, val_main_cst_apply]
  simp only [lidx_v0_ix4, ridx_v0_ix4]
  rfl

/-! ## The row maximum -/

/-- The reference's reduction over the keys at row (b, h, q) is the fold of `max`, from the word of -inf, over the
    row's scores: the specification's row maximum. -/
theorem ref_v6 (x0 x1 : Arr) (x3 : Msk) (b : Fin 4) (h : Fin 16) (q : Fin 2048) :
    val_main_v6 (F := Ideal) x0 x1 x3 (ix3 b h q) = rowMax (score x0 x1 x3 b h q) := by
  have hy : ∀ k : Fin 2048, val_main_v5 (F := Ideal) x0 x1 x3 (ix4 b h q k) = score x0 x1 x3 b h q k :=
    fun k => ref_score x0 x1 x3 b h q k
  unfold val_main_v6
  generalize val_main_v5 (F := Ideal) x0 x1 x3 = y at hy ⊢
  have hR : S4x16x2048x2048.Reduces [3] S4x16x2048 := by decide
  refine (Host.reduce_eq_fold_single (FloatOps.maximumf (F := Ideal) (φ := .f32)) y (val_main_cst_1 (F := Ideal))
    reducesTo_S4x16x2048x2048_S4x16x2048_d3 hR h_S_ (ix3 b h q)).trans ?_
  have hlift : ∀ k : Fin 2048, hR.lift (ix3 b h q) k = ix4 b h q k := fun k => funext fun a => Fin.ext (by
    match a with | ⟨0, _⟩ => rfl | ⟨1, _⟩ => rfl | ⟨2, _⟩ => rfl | ⟨3, _⟩ => rfl)
  have hfun : (fun k : Fin 2048 => y (hR.lift (ix3 b h q) k)) = score x0 x1 x3 b h q :=
    funext fun k => (congrArg y (hlift k)).trans (hy k)
  exact congrArg (fun f => (Finset.univ : Finset (Fin 2048)).fold max (Ideal.ofBits .f32 0xFF800000#32) f) hfun

/-- Taking the maximum with -inf once more changes nothing, since a fold of `max` from a value is at least that value:
    the reference's row maximum at (b, h, q) is the specification's. -/
theorem ref_rowmax (x0 x1 : Arr) (x3 : Msk) (b : Fin 4) (h : Fin 16) (q : Fin 2048) :
    val_main_v8 (F := Ideal) x0 x1 x3 (ix3 b h q) = rowMax (score x0 x1 x3 b h q) := by
  rw [val_main_v8_apply, val_main_v7_apply, val_main_cst_2_apply, ref_v6]
  show max (Ideal.ofBits .f32 0xFF800000#32) (rowMax (score x0 x1 x3 b h q)) = rowMax (score x0 x1 x3 b h q)
  exact max_eq_right (by unfold rowMax; exact (Finset.le_fold_max _).mpr (Or.inl le_rfl))

/-! ## The weights and the normaliser -/

/-- The reference's exponential at (b, h, q, k) is the unnormalised weight exp (score - row maximum). -/
theorem ref_num (x0 x1 : Arr) (x3 : Msk) (b : Fin 4) (h : Fin 16) (q k : Fin 2048) :
    val_main_v12 (F := Ideal) x0 x1 x3 (ix4 b h q k) = num (score x0 x1 x3 b h q) k := by
  rw [val_main_v12_apply, val_main_v11_apply, val_main_v10_apply, val_main_v9_apply, idx_v9_v10_ix4, ref_rowmax,
    ref_score]
  rfl

/-- The reference's sum over the keys at row (b, h, q), taken from the zero word, is the normaliser. -/
theorem ref_den (x0 x1 : Arr) (x3 : Msk) (b : Fin 4) (h : Fin 16) (q : Fin 2048) :
    val_main_v13 (F := Ideal) x0 x1 x3 (ix3 b h q) = den (score x0 x1 x3 b h q) := by
  rw [val_main_v13_apply, val_main_cst_3_apply]
  simp only [idx_v13_ix3, ref_num]
  show Ideal.ofBits .f32 0x00000000#32 + _ = _
  rw [Ideal.ofBits_zero_f32, zero_add]
  rfl

/-! ## The two results -/

/-- The reference's attention matrix is the specification's: each entry is its row's weight over its row's normaliser. -/
theorem ref_attn (x0 x1 : Arr) (x3 : Msk) : val_main_v16 (F := Ideal) x0 x1 x3 = attnG x0 x1 x3 := by
  funext i
  obtain ⟨b, h, q, k, rfl⟩ : ∃ (b : Fin 4) (h : Fin 16) (q : Fin 2048) (k : Fin 2048), i = ix4 b h q k :=
    ⟨i 0, i 1, i 2, i 3, eq_ix4 i⟩
  rw [attnG_ix4, val_main_v16_apply, val_main_v15_apply, val_main_v14_apply, idx_v14_v15_ix4, ref_num, ref_den]
  rfl

/-- The reference's context is the attention matrix times V: each entry is the sum over the keys of the attention
    weight times the value, every weight divided by the normaliser before the sum. -/
theorem ref_ctx (x0 x1 x2 : Arr) (x3 : Msk) : val_main_v17 (F := Ideal) x0 x1 x2 x3 = ctxMulG x0 x1 x2 x3 := by
  funext i
  obtain ⟨b, h, q, d, rfl⟩ : ∃ (b : Fin 4) (h : Fin 16) (q : Fin 2048) (d : Fin 64), i = ix4 b h q d :=
    ⟨i 0, i 1, i 2, i 3, eq_ix4 i⟩
  rw [ctxMulG_ix4, val_main_v17_apply, ref_attn]
  unfold ctxBefore
  refine Finset.sum_congr rfl fun k _ => ?_
  rw [lidx_v17_ix4, ridx_v17_ix4, attnG_ix4]

end Cert.Attn

end
-- ==== Proof.ContextLaw.lean ====
/- The law by which the two orders of forming a context entry agree: when every score and every value is a real
   number, dividing the weighted sum by the normaliser equals summing the weights already divided by it.

   With real scores s k, the row maximum M is a real (a maximum of finitely many reals, at least one of them),
   every e k = exp (s k - M) is a positive real, the normaliser L = Σ_k e k is a positive real, division by L is
   multiplication by the real 1/L, and in the reals (Σ_k e k * v k) * (1/L) = Σ_k (e k * (1/L)) * v k.
   The masked, scaled scores are real whenever Q and K are: the fill is a real, and a finite sum of products of
   reals divided by 8 is a real. -/
import proofs.«101043_j11132555231519_2_alg».proof.Proof.Spec
import proofs.«101043_j11132555231519_2_alg».proof.Proof.Consts

noncomputable section

namespace Cert.Attn

open Idealize.ShloMosaic Idealize.ShloMosaic.ValueIdx

/-- A finite sum of coerced reals is the coerced sum: the inclusion of the reals into the extended reals is
    additive, by induction on the index set. -/
theorem coe_sum {ι : Type*} (t : Finset ι) (f : ι → ℝ) :
    ((∑ i ∈ t, f i : ℝ) : EReal) = ∑ i ∈ t, (f i : EReal) := by
  classical
  refine Finset.induction_on t ?_ ?_
  · simp
  · intro a u ha ih
    rw [Finset.sum_insert ha, Finset.sum_insert ha, EReal.coe_add, ih]

/-- The maximum of a row of 2048 real scores, folded from -inf, is a real number: it is at least the first
    score, hence above -inf, and every score and -inf lie below +inf, hence so does the maximum. -/
theorem rowMax_real (s : Fin 2048 → EReal) (hs : ∀ k, ∃ r : ℝ, s k = (r : EReal)) :
    ∃ M : ℝ, rowMax s = (M : EReal) := by
  have hbot : rowMax s ≠ ⊥ := by
    obtain ⟨r, hr⟩ := hs 0
    have h1 : s 0 ≤ rowMax s :=
      (Finset.le_fold_max _).mpr (Or.inr ⟨0, Finset.mem_univ _, le_rfl⟩)
    intro h
    rw [h, hr] at h1
    exact absurd h1 (not_le.mpr (EReal.bot_lt_coe r))
  have htop : rowMax s ≠ ⊤ := by
    have hlt : rowMax s < ⊤ := by
      unfold rowMax
      rw [Finset.fold_max_lt]
      refine ⟨?_, fun k _ => ?_⟩
      · rw [ofBits_neg_inf]; exact bot_lt_top
      · obtain ⟨r, hr⟩ := hs k
        rw [hr]; exact EReal.coe_lt_top r
    exact hlt.ne
  exact ⟨(rowMax s).toReal, (EReal.coe_toReal htop hbot).symm⟩

/-- With real scores and real values the two orders of forming a context entry agree:
    (Σ_k e k * v k) / L = Σ_k (e k / L) * v k, where e k = exp (s k - max s) and L = Σ_k e k.
    Every e k is a positive real, so L is a positive real, division by L is multiplication by the real 1/L,
    and the identity is distributivity in the reals. -/
theorem ctxAfter_eq_ctxBefore (s v : Fin 2048 → EReal) (hs : ∀ k, ∃ r : ℝ, s k = (r : EReal))
    (hv : ∀ k, ∃ r : ℝ, v k = (r : EReal)) : ctxAfter s v = ctxBefore s v := by
  obtain ⟨M, hM⟩ := rowMax_real s hs
  choose sr hsr using hs
  choose vr hvr using hv
  have hnum : ∀ k, num s k = ((Real.exp (sr k - M) : ℝ) : EReal) := by
    intro k
    unfold num
    rw [hsr k, hM, ← EReal.coe_sub, Ideal.exp_coe]
  have hpos : (0 : ℝ) < ∑ k : Fin 2048, Real.exp (sr k - M) :=
    Finset.sum_pos (fun k _ => Real.exp_pos _) Finset.univ_nonempty
  have hden : den s = ((∑ k : Fin 2048, Real.exp (sr k - M) : ℝ) : EReal) := by
    unfold den
    rw [coe_sum]
    exact Finset.sum_congr rfl (fun k _ => hnum k)
  have e1 : (∑ k : Fin 2048, num s k * v k)
      = ((∑ k : Fin 2048, Real.exp (sr k - M) * vr k : ℝ) : EReal) := by
    rw [coe_sum]
    exact Finset.sum_congr rfl (fun k _ => by rw [hnum k, hvr k, EReal.coe_mul])
  have e2 : (∑ k : Fin 2048, Ideal.div (num s k) (den s) * v k)
      = ((∑ k : Fin 2048,
          Real.exp (sr k - M) * (1 / ∑ j : Fin 2048, Real.exp (sr j - M)) * vr k : ℝ) : EReal) := by
    rw [coe_sum]
    refine Finset.sum_congr rfl (fun k _ => ?_)
    rw [hden, Ideal.div_coe hpos.ne', hnum k, hvr k, EReal.coe_mul, EReal.coe_mul]
  unfold ctxAfter ctxBefore prob
  rw [e2, e1, hden, Ideal.div_coe hpos.ne', ← EReal.coe_mul, Finset.sum_mul]
  congr 1
  exact Finset.sum_congr rfl (fun k _ => by ring)

/-- Every masked, scaled score is a real number when Q and K are real arrays: a masked entry is the fill,
    which is a real; an unmasked one is a sum of 64 products of reals divided by the real 8. -/
theorem score_real (Q K : Arr) (M : Msk) (hQ : ∀ i, ∃ r : ℝ, Q i = (r : EReal))
    (hK : ∀ i, ∃ r : ℝ, K i = (r : EReal)) (b : Fin 4) (h : Fin 16) (q k : Fin 2048) :
    ∃ r : ℝ, score Q K M b h q k = (r : EReal) := by
  choose Qr hQr using hQ
  choose Kr hKr using hK
  unfold score Scalar.select
  split_ifs with hc
  · exact ofBits_fill_real
  · refine ⟨(∑ d : Fin 64, Qr (ix4 b h q d) * Kr (ix4 b h k d)) * (1 / 8), ?_⟩
    rw [ofBits_eight, Ideal.div_coe (by norm_num : (8 : ℝ) ≠ 0), EReal.coe_mul, coe_sum]
    congr 1
    exact Finset.sum_congr rfl (fun d _ => by rw [hQr, hKr, EReal.coe_mul])

/-- On real arrays Q, K, V the context with the division after the sum over keys equals the attention matrix
    times V, entry by entry: each entry is one row of real scores against one column of real values. -/
theorem ctxG_eq_ctxMulG (Q K V : Arr) (M : Msk) (hQ : ∀ i, ∃ r : ℝ, Q i = (r : EReal))
    (hK : ∀ i, ∃ r : ℝ, K i = (r : EReal)) (hV : ∀ i, ∃ r : ℝ, V i = (r : EReal)) :
    ctxG Q K V M = ctxMulG Q K V M := by
  funext i
  unfold ctxG ctxMulG
  exact ctxAfter_eq_ctxBefore _ _ (fun k => score_real Q K M hQ hK (i 0) (i 1) (i 2) k)
    (fun k => hV _)

end Cert.Attn

end
-- ==== Proof.Finite.lean ====
/- The finiteness precondition read back: the printed predicate says that every element x of each of the three
   float arrays satisfies |x| < +inf, the three statements joined by "and". On the extended reals |x| = max x (-x),
   so |x| < +inf excludes both infinities, and what is left of the extended reals is the real numbers. -/
import proofs.«101043_j11132555231519_2_alg».proof.Pre_finite_inputs
import Idealize.ShloMosaic.PureOps.Ideal
import Idealize.ShloMosaic.Lib.ReduceAll
import Idealize.ShloMosaic.Lib.ValueIdx

noncomputable section

namespace Cert.Attn

open Idealize.ShloMosaic Idealize.ShloMosaic.ValueIdx

/-- The shape of rank 0 has exactly one index: there is no axis to give a coordinate on. -/
instance subsingleton_scalar_idx : Subsingleton Cert.Pre_finite_inputs.S_.Idx :=
  ⟨fun _ _ => funext fun d => d.elim0⟩

/-- An extended real whose absolute value max x (-x) lies strictly below +inf is a real number:
    at -inf the absolute value is +inf, at +inf it is +inf, and neither is below +inf. -/
theorem real_of_abs_lt_inf (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- When the finiteness predicate holds of the four arguments, every element of each of the three float arrays
    is a real number: the predicate is the conjunction of three "all elements have |x| < +inf". -/
theorem real_of_finite_inputs [Cert.Pre_finite_inputs.Facts]
    (a0 a1 a2 : FVec Ideal Cert.Pre_finite_inputs.S4x16x2048x64 .f32)
    (a3 : IVec Cert.Pre_finite_inputs.S4x16x2048x2048 32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) := by
  have h0 := congrFun h ix0
  dsimp only [Cert.Pre_finite_inputs.fn] at h0
  simp only [Idealize.ShloMosaic.andi] at h0
  obtain ⟨h01, hc⟩ := IntOp.andi_eq_one.1 h0
  obtain ⟨ha, hb⟩ := IntOp.andi_eq_one.1 h01
  refine ⟨fun i => ?_, fun i => ?_, fun i => ?_⟩
  · exact real_of_abs_lt_inf (a0 i) (Host.reduce_andi_all _ _ _ _ _ ha i)
  · exact real_of_abs_lt_inf (a1 i) (Host.reduce_andi_all _ _ _ _ _ hb i)
  · exact real_of_abs_lt_inf (a2 i) (Host.reduce_andi_all _ _ _ _ _ hc i)

end Cert.Attn

end
-- ==== Proof.lean ====
/- Masked scaled dot-product attention: the kernel against its reference, at the exact (extended-real) reading.

   Both programs form, for batch b, head h and query row q, the scores
     s k = if mask[b,h,q,k] = 0 then -1e9 else (Σ_d Q[b,h,q,d] * K[b,h,k,d]) / 8
   (the kernel multiplies by 0.125, which is the same on every extended real), the row maximum M from -inf, the weights
   e k = exp (s k - M) and their sum L, and return the attention matrix e k / L. They differ in the context: the
   reference multiplies the attention matrix by V, Σ_k (e k / L) * V[b,h,k,d]; the kernel divides after the product,
   (Σ_k e k * V[b,h,k,d]) / L. Under the precondition every entry of Q, K and V is a real number, so every score is
   real, L is a positive real, and the two orders agree (ContextLaw). The attention matrices agree outright.

   The kernel's value: each grid point handles 512 query rows of one (batch, head); its body's two stores are read
   entry by entry (Dots, Scores, Context, BodyOut), placed in the arrays (GridIdx, Blocks, Cover) and collected into the
   whole-array functions ctxG and attnG of Spec (KernelRun). The reference's value is its operations composed
   (RefValue). The frames are the programs' runs with the results dropped; no operation was rewritten by the
   idealization, so there is nothing to preserve. -/
import proofs.«101043_j11132555231519_2_alg».proof.Defs
import proofs.«101043_j11132555231519_2_alg».proof.Proof.Gen.Kernel
import proofs.«101043_j11132555231519_2_alg».proof.Proof.Gen.Kernel.Frame
import proofs.«101043_j11132555231519_2_alg».proof.Proof.Gen.KernelIdeal
import proofs.«101043_j11132555231519_2_alg».proof.Proof.Gen.KernelIdeal.Frame
import proofs.«101043_j11132555231519_2_alg».proof.Proof.Gen.KernelIdeal.Value
import proofs.«101043_j11132555231519_2_alg».proof.Proof.Gen.ReferenceIdeal
import proofs.«101043_j11132555231519_2_alg».proof.Proof.Gen.ReferenceIdeal.Run
import proofs.«101043_j11132555231519_2_alg».proof.Proof.Gen.ReferenceIdeal.Read
import proofs.«101043_j11132555231519_2_alg».proof.Proof.Gen.Pre_finite_inputs
import proofs.«101043_j11132555231519_2_alg».proof.Proof.KernelRun
import proofs.«101043_j11132555231519_2_alg».proof.Proof.RefValue
import proofs.«101043_j11132555231519_2_alg».proof.Proof.ContextLaw
import proofs.«101043_j11132555231519_2_alg».proof.Proof.Finite
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its exact reading. -/
theorem frame_kernel_ideal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The exact reading rewrote no operation of the kernel. -/
theorem preserves : Cert.preserves_Kernel_KernelIdeal := trivial

/-- From memories agreeing on the four arguments, Q, K and V finite: both programs end with the context at
    (Σ_k e k * V) / L and the attention matrix at e k / L — the kernel by its run read as whole arrays, the reference by its
    composed operations and, for the context, the law that joins the two orders of division. -/
theorem algebraic : Cert.algebraic_KernelIdeal_ReferenceIdeal := by
  intro m ρ m' ρ' hpre hagree
  refine ⟨fun c => Cert.Attn.ctxG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Attn.attnG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    Cert.Attn.kernel_run m ρ, ?_⟩
  refine (θ_run Cert.ReferenceIdeal.defs _ _).mono (fun r h c => ⟨?_, ?_, (h c).2.2⟩)
    (Cert.ReferenceIdeal.Value.run (F := Ideal) m' ρ')
  · obtain ⟨hQ, hK, hV⟩ := Cert.Attn.real_of_finite_inputs _ _ _ _ (hpre c)
    rw [(h c).1, Cert.ReferenceIdeal.Read.val_main_v17_eq, Cert.Attn.ref_ctx, (hagree c).1, (hagree c).2.1, (hagree c).2.2.1,
      (hagree c).2.2.2]
    exact (Cert.Attn.ctxG_eq_ctxMulG _ _ _ _ hQ hK hV).symm
  · rw [(h c).2.1, Cert.ReferenceIdeal.Read.val_main_v16_eq, Cert.Attn.ref_attn, (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
